-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_1)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v4_0)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_1) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel

variable [Facts]

def fn {F : FTy → Type} [FloatOps F] (main_arg0 : FVec F S131072x256 .f32) (main_arg1 : IVec S131072x256 32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_c_0 : IVec S_ 32 := constantI S_ 32 0#32
  let main_v4 : IVec S131072x256 32 := broadcastInDim S131072x256 ![] bcast_S_S131072x256 main_c_0
  let main_v5 : IVec S131072x256 1 := cmpi .sge main_arg1 main_v4
  let main_c_1 : IVec S_ 1 := constantI S_ 1 1#1
  let main_v6 : IVec S_ 1 := (fun x v => Host.reduce IntOp.andi x v reducesTo_S131072x256_S_d0_1 h_S_) main_v5 main_c_1
  let main_v7 : IVec S_ 1 := andi main_v3 main_v6
  let main_c_2 : IVec S_ 32 := constantI S_ 32 256#32
  let main_v8 : IVec S131072x256 32 := broadcastInDim S131072x256 ![] bcast_S_S131072x256 main_c_2
  let main_v9 : IVec S131072x256 1 := cmpi .slt main_arg1 main_v8
  let main_c_3 : IVec S_ 1 := constantI S_ 1 1#1
  let main_v10 : IVec S_ 1 := (fun x v => Host.reduce IntOp.andi x v reducesTo_S131072x256_S_d0_1 h_S_) main_v9 main_c_3
  let main_v11 : IVec S_ 1 := andi main_v7 main_v10
  main_v11
-- ==== Kernel.lean ====
abbrev S131072x256 : Shape := ⟨2, ![131072, 256]⟩
abbrev S131072x128 : Shape := ⟨2, ![131072, 128]⟩
abbrev S4096x256 : Shape := ⟨2, ![4096, 256]⟩
abbrev S4096x128 : Shape := ⟨2, ![4096, 128]⟩
abbrev S4096x128x1 : Shape := ⟨3, ![4096, 128, 1]⟩

abbrev nBuf : Space → Nat
  | .hbm => 8
  | .vmem => 8
  | .smem => 0
  | _ => 0

abbrev bufTy : (tb : Table) → Fin (tcTables nBuf tb) → BufTy
  | .hbm, ⟨0, _⟩ => ⟨S131072x256, .f32⟩
  | .hbm, ⟨1, _⟩ => ⟨S131072x256, .i32⟩
  | .hbm, ⟨2, _⟩ => ⟨S131072x128, .i32⟩
  | .hbm, ⟨3, _⟩ => ⟨S131072x128, .i32⟩
  | .hbm, ⟨4, _⟩ => ⟨S131072x128, .i32⟩
  | .hbm, ⟨5, _⟩ => ⟨S131072x128, .i32⟩
  | .hbm, ⟨6, _⟩ => ⟨S131072x128, .f32⟩
  | .hbm, ⟨7, _⟩ => ⟨S131072x128, .f32⟩
  | .local _ .vmem, ⟨0, _⟩ => ⟨S4096x256, .f32⟩
  | .local _ .vmem, ⟨1, _⟩ => ⟨S4096x256, .f32⟩
  | .local _ .vmem, ⟨2, _⟩ => ⟨S4096x128, .i32⟩
  | .local _ .vmem, ⟨3, _⟩ => ⟨S4096x128, .i32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S131072x256_S131072x128_0_0 : S131072x256.Slices ![0, 0] S131072x128
  slices_S131072x256_S131072x128_0_128 : S131072x256.Slices ![0, 128] S131072x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x256_S4096x128_0_0 : ∀ a, (![0, 0] : Fin 2 → Nat) a + S4096x128.size a ≤ S4096x256.size a
  inb_S4096x256_S4096x128_0_128 : ∀ a, (![0, 128] : Fin 2 → Nat) a + S4096x128.size a ≤ S4096x256.size a
  shapeCasts_S4096x128_S4096x128x1 : S4096x128.ShapeCasts S4096x128x1
  shapeCasts_S4096x128x1_S4096x128 : S4096x128x1.ShapeCasts S4096x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .i32 = 32 ∨ (Rect.block (s := S131072x128) S4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)

variable [Facts₀]

def comparator_i32_d1 : BitVec 32 → BitVec 32 → BitVec 1 :=
  fun l r =>
    let v1 := IntOp.cmpi .slt l r
    v1

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S4096x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072x128 : Shape := ⟨2, ![131072, 128]⟩
abbrev S_ : Shape := ⟨0, ![]⟩
abbrev S131072x128x1 : Shape := ⟨3, ![131072, 128, 1]⟩
abbrev S1 : Shape := ⟨1, ![1]⟩
abbrev S1x1x1 : Shape := ⟨3, ![1, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .i32⟩
  | .hbm, ⟨2, _⟩ => ⟨S131072x128, .i32⟩
  | .hbm, ⟨3, _⟩ => ⟨S131072x128, .i32⟩
  | .hbm, ⟨4, _⟩ => ⟨S131072x128, .i32⟩
  | .hbm, ⟨5, _⟩ => ⟨S131072x128, .i32⟩
  | .hbm, ⟨6, _⟩ => ⟨S_, .i32⟩
  | .hbm, ⟨7, _⟩ => ⟨S131072x128, .i32⟩
  | .hbm, ⟨8, _⟩ => ⟨S131072x128, .i1⟩
  | .hbm, ⟨9, _⟩ => ⟨S_, .i32⟩
  | .hbm, ⟨10, _⟩ => ⟨S131072x128, .i32⟩
  | .hbm, ⟨11, _⟩ => ⟨S131072x128, .i32⟩
  | .hbm, ⟨12, _⟩ => ⟨S131072x128, .i32⟩
  | .hbm, ⟨13, _⟩ => ⟨S131072x128x1, .i32⟩
  | .hbm, ⟨14, _⟩ => ⟨S1, .i32⟩
  | .hbm, ⟨15, _⟩ => ⟨S_, .i32⟩
  | .hbm, ⟨16, _⟩ => ⟨S131072x128x1, .i32⟩
  | .hbm, ⟨17, _⟩ => ⟨S131072x128x1, .i1⟩
  | .hbm, ⟨18, _⟩ => ⟨S1x1x1, .i32⟩
  | .hbm, ⟨19, _⟩ => ⟨S131072x128x1, .i32⟩
  | .hbm, ⟨20, _⟩ => ⟨S131072x128x1, .i1⟩
  | .hbm, ⟨21, _⟩ => ⟨S131072x128x1, .i1⟩
  | .hbm, ⟨22, _⟩ => ⟨S_, .i1⟩
  | .hbm, ⟨23, _⟩ => ⟨S131072x128, .i1⟩
  | .hbm, ⟨24, _⟩ => ⟨S131072x128, .f32⟩
  | .hbm, ⟨25, _⟩ => ⟨S_, .f32⟩
  | .hbm, ⟨26, _⟩ => ⟨S131072x128, .f32⟩
  | .hbm, ⟨27, _⟩ => ⟨S131072x128, .f32⟩
  | .hbm, ⟨28, _⟩ => ⟨S_, .f32⟩
  | .hbm, ⟨29, _⟩ => ⟨S131072x128, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call2_c : Ref sig .tc := ⟨.hbm, 6, rfl⟩
abbrev main_call2_v0 : Ref sig .tc := ⟨.hbm, 7, rfl⟩
abbrev main_call2_v1 : Ref sig .tc := ⟨.hbm, 8, rfl⟩
abbrev main_call2_c_0 : Ref sig .tc := ⟨.hbm, 9, rfl⟩
abbrev main_call2_v2 : Ref sig .tc := ⟨.hbm, 10, rfl⟩
abbrev main_call2_v3 : Ref sig .tc := ⟨.hbm, 11, rfl⟩
abbrev main_call2_v4 : Ref sig .tc := ⟨.hbm, 12, rfl⟩
abbrev main_call2_v5 : Ref sig .tc := ⟨.hbm, 13, rfl⟩
abbrev main_call2_c_1 : Ref sig .tc := ⟨.hbm, 14, rfl⟩
abbrev main_call2_c_2 : Ref sig .tc := ⟨.hbm, 15, rfl⟩
abbrev main_call2_v6 : Ref sig .tc := ⟨.hbm, 16, rfl⟩
abbrev main_call2_v7 : Ref sig .tc := ⟨.hbm, 17, rfl⟩
abbrev main_call2_v8 : Ref sig .tc := ⟨.hbm, 18, rfl⟩
abbrev main_call2_v9 : Ref sig .tc := ⟨.hbm, 19, rfl⟩
abbrev main_call2_v10 : Ref sig .tc := ⟨.hbm, 20, rfl⟩
abbrev main_call2_v11 : Ref sig .tc := ⟨.hbm, 21, rfl⟩
abbrev main_call2_c_3 : Ref sig .tc := ⟨.hbm, 22, rfl⟩
abbrev main_call2_v12 : Ref sig .tc := ⟨.hbm, 23, rfl⟩
abbrev main_call2_v13 : Ref sig .tc := ⟨.hbm, 24, rfl⟩
abbrev main_call2_cst : Ref sig .tc := ⟨.hbm, 25, rfl⟩
abbrev main_call2_v14 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩

abbrev nD : Nat := 1
abbrev τ : Topo := Topo.v7x

variable {F : FTy → Type} [FloatOps F]

class Facts₀ : Prop where
  slices_S131072x256_S131072x128_0_0 : S131072x256.Slices ![0, 0] S131072x128
  slices_S131072x256_S131072x128_0_128 : S131072x256.Slices ![0, 128] S131072x128
  bcast_S_S131072x128 : S_.BroadcastsInDim S131072x128 (![] : Fin 0 → Fin S131072x128.rank)
  shapeCasts_S131072x128_S131072x128x1 : S131072x128.ShapeCasts S131072x128x1
  bcast_S_S131072x128x1 : S_.BroadcastsInDim S131072x128x1 (![] : Fin 0 → Fin S131072x128x1.rank)
  bcast_S1_S1x1x1_2 : S1.BroadcastsInDim S1x1x1 (![2] : Fin 1 → Fin S1x1x1.rank)
  bcast_S1x1x1_S131072x128x1_0_1_2 : S1x1x1.BroadcastsInDim S131072x128x1 (![0, 1, 2] : Fin 3 → Fin S131072x128x1.rank)
  reducesTo_S131072x128x1_S131072x128_d2 : S131072x128x1.ReducesTo [2] S131072x128
  h_S_ : 0 < S_.numel
  gather_S131072x256_S131072x128x1_S131072x128_n_1_0_0_1_2_11_wf : GatherDims.WF S131072x256 S131072x128x1 S131072x128 [] [1] [0] [1] [0] 2 ![1, 1]

variable [Facts₀]

def comparator_i32_d1 : BitVec 32 → BitVec 32 → BitVec 1 :=
  fun l r =>
    let v1 := IntOp.cmpi .slt l r
    v1
def gather_S131072x256_S131072x128x1_S131072x128_n_1_0_0_1_2_11 : GatherDims S131072x256 S131072x128x1 S131072x128 where
  offsetDims := []
  collapsedSliceDims := [1]
  operandBatchingDims := [0]
  startIndicesBatchingDims := [0]
  startIndexMap := [1]
  indexVectorDim := 2
  sliceSizes := ![1, 1]
  wf := gather_S131072x256_S131072x128x1_S131072x128_n_1_0_0_1_2_11_wf

class Facts : Prop extends Facts₀ where

variable [Facts]
-- ==== Proof.Words.lean ====
/-
  Index words.

  A column index arrives as a 32-bit word.  When the word, read unsigned, is below 256 it is a column of a row of 256
  entries, it reads the same signed and unsigned, and every test and adjustment the two programs apply to it is
  decided: the signed comparisons with 0, 128, 255 and 256 say what the unsigned value says, moving a negative
  index up leaves it alone, clamping it into the row leaves it alone, and splitting the row into two halves of
  128 sends the word either to itself (first half) or to itself less 128 (second half).
-/
import Idealize.ShloMosaic.Lib.Affine
import Idealize.ShloMosaic.Lib.ValueIdx

namespace Cert.Words

open Idealize.ShloMosaic Idealize.ShloMosaic.ValueIdx

variable {k : BitVec 32}

/-- A word below 256 reads the same signed and unsigned. -/
theorem toInt_small (h : k.toNat < 256) : k.toInt = (k.toNat : Int) :=
  BitVec.toInt_eq_toNat_of_lt (by omega)

private theorem toInt_lit (n : Nat) (hn : n < 2 ^ 31) : (BitVec.ofNat 32 n).toInt = (n : Int) := by
  rw [BitVec.toInt_eq_toNat_of_lt (by rw [BitVec.toNat_ofNat]; omega), BitVec.toNat_ofNat]
  congr 1; omega

/-- A word that tests nonnegative and below 256 (signed) is below 256 read unsigned. -/
theorem small_of_tests (h0 : IntOp.cmpi .sge k 0#32 = 1#1) (h1 : IntOp.cmpi .slt k 256#32 = 1#1) : k.toNat < 256 := by
  rw [IntOp.cmpi_sge, toInt_lit 0 (by omega)] at h0
  rw [IntOp.cmpi_slt, toInt_lit 256 (by omega)] at h1
  have hc := BitVec.toInt_eq_toNat_cond k
  split at hc <;> omega

/-! ## The reference's tests -/

/-- The index is not below zero, so it is not moved up. -/
theorem not_neg (h : k.toNat < 256) : IntOp.cmpi .slt k 0#32 = 0#1 :=
  eq_zero_of_ne_one (by rw [IntOp.cmpi_slt, toInt_small h, toInt_lit 0 (by omega)]; omega)

/-- Moving a negative index up by 256 leaves a word below 256 alone. -/
theorem wrap_small (h : k.toNat < 256) : Scalar.select (IntOp.cmpi .slt k 0#32) (IntOp.addi k 256#32) k = k := by
  rw [not_neg h, select_zero]

/-- It is at least zero … -/
theorem ge_zero (h : k.toNat < 256) : IntOp.cmpi .sge k 0#32 = 1#1 := by
  rw [IntOp.cmpi_sge, toInt_small h, toInt_lit 0 (by omega)]; omega

/-- … and at most 255. -/
theorem le_255 (h : k.toNat < 256) : IntOp.cmpi .sle k 255#32 = 1#1 := by
  rw [IntOp.cmpi_sle, toInt_small h, toInt_lit 255 (by omega)]; omega

/-- Clamping it into the row leaves it alone. -/
theorem clamp_small (h : k.toNat < 256) : min k.toInt.toNat (256 - 1) = k.toNat := by
  rw [toInt_small h, Int.toNat_natCast]; omega

/-! ## The kernel's split of the row into two halves -/

/-- Whether the index falls in the first half. -/
def inFirst (k : BitVec 32) : BitVec 1 := IntOp.cmpi .slt k 128#32

/-- A half-row index below zero is moved up by 128. -/
def norm (j : BitVec 32) : BitVec 32 := Scalar.select (IntOp.cmpi .slt j 0#32) (IntOp.addi j 128#32) j

/-- The index into the first half: the word itself when it falls there, else 0. -/
def firstWord (k : BitVec 32) : BitVec 32 := norm (Scalar.select (inFirst k) k 0#32)

/-- The index into the second half: 0 when the word falls in the first half, else the word less 128. -/
def secondWord (k : BitVec 32) : BitVec 32 := norm (Scalar.select (inFirst k) 0#32 (IntOp.subi k 128#32))

theorem inFirst_lo (h : k.toNat < 128) : inFirst k = 1#1 := by
  unfold inFirst
  rw [IntOp.cmpi_slt, toInt_small (by omega), toInt_lit 128 (by omega)]; omega

theorem inFirst_hi (h1 : 128 ≤ k.toNat) (h2 : k.toNat < 256) : inFirst k = 0#1 := by
  unfold inFirst
  exact eq_zero_of_ne_one (by rw [IntOp.cmpi_slt, toInt_small h2, toInt_lit 128 (by omega)]; omega)

theorem norm_small {j : BitVec 32} (h : j.toNat < 256) : norm j = j := by
  unfold norm; rw [not_neg h, select_zero]

/-- In the first half the word is its own index there. -/
theorem firstWord_lo (h : k.toNat < 128) : (firstWord k).toNat % 128 = k.toNat := by
  unfold firstWord
  rw [inFirst_lo h, select_one, norm_small (by omega)]
  omega

/-- In the second half the index is the word less 128. -/
theorem secondWord_hi (h1 : 128 ≤ k.toNat) (h2 : k.toNat < 256) : (secondWord k).toNat % 128 = k.toNat - 128 := by
  have hs : (IntOp.subi k 128#32).toNat = k.toNat - 128 := by
    unfold IntOp.subi
    rw [BitVec.toNat_sub, show (128#32 : BitVec 32).toNat = 128 from rfl]
    omega
  unfold secondWord
  rw [inFirst_hi h1 h2, select_zero, norm_small (by omega), hs]
  omega

end Cert.Words
-- ==== Proof.KernelBlock.lean ====
/-
  One block of the kernel.

  At a grid point the kernel holds a block of 4096 rows of the data array (all 256 columns) and the matching block of
  the sorted index array (128 columns).  It reads the data block as two halves of 128 columns, looks the index up in
  each half separately — in the first half at the index itself when the index is below 128, in the second half at the
  index less 128 otherwise — and keeps, entry by entry, the look-up of the half the index falls in.  Read at a row
  `p` and a column `q` of the block, the result is therefore the data block's row `p` at ONE column of the 256, a
  function of the index word at `(p, q)` alone.  The second output of the block is zero everywhere.
-/
import proofs.«135948_j12266426597521_1_alg».proof.Proof.Gen.KernelIdeal.Frame
import proofs.«135948_j12266426597521_1_alg».proof.Proof.Words
import Idealize.ShloMosaic.Lib.Pipeline.Value
import Idealize.ShloMosaic.Lib.ValueIdx

noncomputable section

namespace Cert.KernelBlock

open Cert.KernelIdeal Cert.KernelIdeal.Gen Idealize.ShloMosaic Idealize.ShloMosaic.ValueIdx Cert.Words

variable {F : FTy → Type} [FloatOps F]

theorem hz : (![0, 0] : Fin 2 → Nat) = fun _ => 0 := funext fun a => by fin_cases a <;> rfl

/-- A look-up along the columns of a `[4096, 128]` block, read at `(p, q)`: row `p` at the index word's value
    reduced into the 128 columns. -/
theorem dynamicGather_cols {α : Type} (v : S4096x128.Idx → α) (idx : IVec S4096x128 32) (p : Fin 4096) (q : Fin 128) :
    dynamicGather 1 v idx (ix2 p q) = v (ix2 p ⟨(idx (ix2 p q)).toNat % 128, Nat.mod_lt _ (by decide)⟩) := by
  unfold dynamicGather
  congr 1
  funext b
  match b with
  | ⟨0, _⟩ => rfl
  | ⟨1, _⟩ => rfl

/-- The payload as a whole: the two casts to a trailing unit axis and back cancel, and what is left is the choice,
    by the half the index falls in, between the two look-ups at the two half-row indices. -/
theorem pay1_eq (v0 : Vec F S4096x128 .i32) (v2 v3 : Vec F S4096x128 .f32) :
    k0_pay1 v0 v2 v3
      = select (fun y => inFirst (v0 y)) (dynamicGather 1 v2 fun y => firstWord (v0 y))
          (dynamicGather 1 v3 fun y => secondWord (v0 y)) := by
  unfold k0_pay1
  simp only [shapeCast_self, shapeCast_shapeCast]
  rfl

/-- The payload at row `p`, column `q`. -/
theorem pay1_apply (v0 : Vec F S4096x128 .i32) (v2 v3 : Vec F S4096x128 .f32) (p : Fin 4096) (q : Fin 128) :
    k0_pay1 v0 v2 v3 (ix2 p q)
      = Scalar.select (inFirst (v0 (ix2 p q)))
          (v2 (ix2 p ⟨(firstWord (v0 (ix2 p q))).toNat % 128, Nat.mod_lt _ (by decide)⟩))
          (v3 (ix2 p ⟨(secondWord (v0 (ix2 p q))).toNat % 128, Nat.mod_lt _ (by decide)⟩)) := by
  rw [pay1_eq]
  show Scalar.select _ (dynamicGather 1 v2 _ (ix2 p q)) (dynamicGather 1 v3 _ (ix2 p q)) = _
  rw [dynamicGather_cols, dynamicGather_cols]

end Cert.KernelBlock

end
-- ==== Proof.LibTypedRef.lean ====
/-
  Round trips through a typed reference.

  A typed reference to a tensor value's buffer carries a proof that the buffer's type is the value's type, and a
  called function's operations move contents between the two types along that proof: to the buffer's type when they
  write, back to the value's type when they read. The two moves are inverse to each other, whatever the reference and
  whatever the contents, because along the proof the two types are one type. Stated for ANY typed reference and proved
  by substituting the proof away, so that a term read back through such operations is freed of its round trips by
  rewriting, one pair at a time — each step checked on its own small equation, never by comparing the two whole terms.
-/
import Idealize.ShloMosaic.Lib.StableHlo

namespace Cert.LibTypedRef

open Idealize.ShloMosaic Idealize.ShloMosaic.StableHlo

variable {sig : RefSig} {Val : EltTy → Type} {T : BufTy}

/-- Contents moved to the buffer's own type and back are unchanged. -/
theorem ofBuf_toBuf (x : TRef sig T) (v : T.Contents Val) : x.ofBuf (x.toBuf v) = v := by
  obtain ⟨ref, ty_eq, h1, h2⟩ := x
  subst ty_eq
  rfl

/-- Contents moved to the value's type and back are unchanged. -/
theorem toBuf_ofBuf (x : TRef sig T) (v : x.ref.ty.Contents Val) : x.toBuf (x.ofBuf v) = v := by
  obtain ⟨ref, ty_eq, h1, h2⟩ := x
  subst ty_eq
  rfl

end Cert.LibTypedRef
-- ==== Proof.KernelArray.lean ====
/-
  The kernel's result arrays as whole-array functions.

  The grid has 32 points; point `t` works on rows `4096·t … 4096·t + 4095` of every array, so the blocks written back
  tile each output array and every entry of it is written by exactly the point that owns its row.  Block by block the
  first output is the data array's row read at the column the block's index word names (`KernelBlock`), hence the whole
  output is: entry `(r, c)` = the data array's row `r` at the column named by the sorted index word at `(r, c)`.
  The second output is zero everywhere.  The sorted index arrays are made by the host operations before the kernel
  starts and are not touched by it; what they hold is read off those operations.
-/
import proofs.«135948_j12266426597521_1_alg».proof.Proof.Gen.KernelIdeal.Value
import proofs.«135948_j12266426597521_1_alg».proof.Proof.KernelBlock
import proofs.«135948_j12266426597521_1_alg».proof.Proof.LibTypedRef
import Idealize.ShloMosaic.Lib.StableHlo.Run

noncomputable section

namespace Cert.KernelArray

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Words Cert.KernelBlock

variable {F : FTy → Type} [FloatOps F]

/-! ## The functions -/

/-- The column of the row of 256 the kernel reads for an index word: in the first half at the first-half index, in the
    second half, 128 further on, at the second-half index. -/
def pick (k : BitVec 32) : Fin 256 :=
  Scalar.select (inFirst k) ⟨(firstWord k).toNat % 128, by omega⟩ ⟨128 + (secondWord k).toNat % 128, by omega⟩

/-- A word below 256 names its own column. -/
theorem pick_small {k : BitVec 32} (h : k.toNat < 256) : pick k = ⟨k.toNat, h⟩ := by
  unfold pick
  by_cases h1 : k.toNat < 128
  · rw [inFirst_lo h1, select_one]
    exact Fin.ext (firstWord_lo h1)
  · rw [inFirst_hi (by omega) h, select_zero]
    refine Fin.ext ?_
    show 128 + (secondWord k).toNat % 128 = k.toNat
    rw [secondWord_hi (by omega) h]; omega

/-- The first output: entry `(r, c)` is the data array's row `r` at the column the index word at `(r, c)` picks. -/
def taken (a0 : S131072x256.Idx → Elt F .f32) (s : S131072x128.Idx → BitVec 32) : S131072x128.Idx → Elt F .f32 :=
  fun i => a0 (ix2 (i 0) (pick (s i)))

/-- The second output: zero everywhere. -/
def zeros : S131072x128.Idx → Elt F .f32 := fun _ => Scalar.ofBits .f32 0x00000000#32

/-! ## One block -/

/-- The first output's block at `(p, q)`: the data block's row `p` at the picked column. -/
theorem out2_apply (x0 : Vec F S4096x256 .f32) (x1 : Vec F S4096x128 .i32) (p : Fin 4096) (q : Fin 128) :
    out0_2 x0 x1 (ix2 p q) = x0 (ix2 p (pick (x1 (ix2 p q)))) := by
  unfold out0_2
  rw [View.canon_unit_zero hz]
  simp only [View.ld_unit_zero (S := S4096x128) hz]
  rw [pay1_apply]
  unfold pick
  rcases BitVec.eq_zero_or_eq_one (inFirst (x1 (ix2 p q))) with h | h
  · rw [h, select_zero, select_zero]
    refine congrArg x0 (funext fun a => Fin.ext ?_)
    match a with
    | ⟨0, _⟩ => show 0 + 1 * p.val = p.val; omega
    | ⟨1, _⟩ => show 128 + 1 * ((secondWord (x1 (ix2 p q))).toNat % 128) = 128 + (secondWord (x1 (ix2 p q))).toNat % 128; omega
  · rw [h, select_one, select_one]
    refine congrArg x0 (funext fun a => Fin.ext ?_)
    match a with
    | ⟨0, _⟩ => show 0 + 1 * p.val = p.val; omega
    | ⟨1, _⟩ => show 0 + 1 * ((firstWord (x1 (ix2 p q))).toNat % 128) = (firstWord (x1 (ix2 p q))).toNat % 128; omega

/-- The second output's block: zero. -/
theorem out3_eq (x0 : Vec F S4096x256 .f32) (x1 : Vec F S4096x128 .i32) :
    out0_3 x0 x1 = fun _ => Scalar.ofBits .f32 0x00000000#32 := by
  unfold out0_3
  rw [View.canon_unit_zero hz]
  rfl

/-- The first output's block at any index of the block. -/
theorem out2_at (x0 : Vec F S4096x256 .f32) (x1 : Vec F S4096x128 .i32) (j : S4096x128.Idx) :
    out0_2 x0 x1 j = x0 (ix2 (j 0) (pick (x1 j))) := by
  obtain ⟨p, q, rfl⟩ : ∃ (p : Fin 4096) (q : Fin 128), j = ix2 p q := ⟨j 0, j 1, eq_ix2 j⟩
  exact out2_apply x0 x1 p q

/-! ## From blocks to arrays -/

variable (m : (ℓ : Loc nD τ sig) → Buf (Elt F) ℓ) (ρ : Dev nD → PrngReg)

/-- The printed index maps, decided over the 32 grid points: every window's block row is the point's, its block
    column 0. -/
theorem idx_facts : ∀ t : Fin cfg0.N,
    win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 31 :=
  (by decide +kernel : ∀ t : Fin grid0.N, _)

/-- Every block row of the first output is some point's … -/
theorem idx_onto2 : ∀ q0 : Fin 32, ∃ t : Fin cfg0.N, win0_2.index t = ![q0.val, 0] :=
  (by decide +kernel : ∀ q0 : Fin 32, ∃ t : Fin grid0.N, win0_2.index t = ![q0.val, 0])

/-- … and every block row of the second. -/
theorem idx_onto3 : ∀ q0 : Fin 32, ∃ t : Fin cfg0.N, win0_3.index t = ![q0.val, 0] :=
  (by decide +kernel : ∀ q0 : Fin 32, ∃ t : Fin grid0.N, win0_3.index t = ![q0.val, 0])

/-- WHAT POINT `t` WRITES BACK to the first output is block `t` of `taken` of the data array and the sorted index
    array as the kernel finds them: the data block and the index block at `t` sit at the same rows as the output block. -/
theorem flushed2_eq (c : Dev nD) (t : Fin cfg0.N) :
    (dats m 0 c).flushed 2 t = ((cfg0.win 2).blk t).view.read (Elt F) (taken (V m c main_arg0) (V m c main_v3)) := by
  rw [flushed2]
  obtain ⟨e0, e1, e2, e3, e4, e5⟩ := idx_facts t
  funext j
  show out0_2 (iblk m c 0 t) (iblk m c 1 t) j = taken (V m c main_arg0) (V m c main_v3) (((cfg0.win 2).blk t).view.emb j)
  refine (out2_at (iblk m c 0 t) (iblk m c 1 t) j).trans ?_
  show V m c main_arg0 (((cfg0.win 0).blk t).view.emb (ix2 (j 0) (pick (V m c main_v3 (((cfg0.win 1).blk t).view.emb j)))))
    = V m c main_arg0 (ix2 ((((cfg0.win 2).blk t).view.emb j) 0) (pick (V m c main_v3 (((cfg0.win 2).blk t).view.emb j))))
  have h1 : ((cfg0.win 1).blk t).view.emb j = ((cfg0.win 2).blk t).view.emb j := by
    funext a; apply Fin.ext
    match a with
    | ⟨0, _⟩ => show win0_1.index t (0 : Fin 2) * 4096 + 1 * (j 0).val = win0_2.index t (0 : Fin 2) * 4096 + 1 * (j 0).val; omega
    | ⟨1, _⟩ => show win0_1.index t (1 : Fin 2) * 128 + 1 * (j 1).val = win0_2.index t (1 : Fin 2) * 128 + 1 * (j 1).val; omega
  rw [h1]
  refine congrArg (V m c main_arg0) (funext fun a => Fin.ext ?_)
  match a with
  | ⟨0, _⟩ => show win0_0.index t (0 : Fin 2) * 4096 + 1 * (j 0).val = win0_2.index t (0 : Fin 2) * 4096 + 1 * (j 0).val; omega
  | ⟨1, _⟩ =>
    show win0_0.index t (1 : Fin 2) * 256 + 1 * (pick (V m c main_v3 (((cfg0.win 2).blk t).view.emb j))).val
      = (pick (V m c main_v3 (((cfg0.win 2).blk t).view.emb j))).val
    omega

/-- WHAT POINT `t` WRITES BACK to the second output is block `t` of zero. -/
theorem flushed3_eq (c : Dev nD) (t : Fin cfg0.N) :
    (dats m 0 c).flushed 3 t = ((cfg0.win 3).blk t).view.read (Elt F) (zeros (F := F)) := by
  rw [flushed3]
  show out0_3 (iblk m c 0 t) (iblk m c 1 t) = _
  rw [out3_eq]
  rfl

/-- An index of the first output is in point `t`'s block iff each coordinate is in the block's range on its axis. -/
theorem mem_blk2 (t : Fin cfg0.N) (i : S131072x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v4_0).slice (win0_2.rect t)).set ↔ _
  rw [View.set_slice_whole, Rect.mem_set_unit]
  exact Iff.rfl

/-- The same for the second output. -/
theorem mem_blk3 (t : Fin cfg0.N) (i : S131072x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v4_1).slice (win0_3.rect t)).set ↔ _
  rw [View.set_slice_whole, Rect.mem_set_unit]
  exact Iff.rfl

/-- Every entry of the first output is in the block of the point that owns its row: row `r` belongs to point `r / 4096`. -/
theorem cover2 (i : S131072x128.Idx) :
    ∃ t : Fin cfg0.N, (cfg0.win 2).flush t = true ∧ i ∈ ((cfg0.win 2).blk t).view.set := by
  have hi0 : (i 0).val < 131072 := (i 0).isLt
  have hi1 : (i 1).val < 128 := (i 1).isLt
  obtain ⟨t, ht⟩ := idx_onto2 ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk2]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

/-- The same for the second output. -/
theorem cover3 (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ := idx_onto3 ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- THE FIRST OUTPUT after the run. -/
theorem final2 (c : Dev nD) : (dats m 0 c).arrAt 2 cfg0.N = taken (V m c main_arg0) (V m c main_v3) :=
  (dats m 0 c).arrAt_eq_of_cover 2 _ (fun t _ => flushed2_eq m c t) cover2

/-- THE SECOND OUTPUT after the run. -/
theorem final3 (c : Dev nD) : (dats m 0 c).arrAt 3 cfg0.N = zeros (F := F) :=
  (dats m 0 c).arrAt_eq_of_cover 3 _ (fun t _ => flushed3_eq m c t) cover3

end Cert.KernelArray

end
-- ==== Proof.KernelRun.lean ====
/-
  The kernel program, run.

  Before the kernel starts, the host cuts the index array into its two column halves and sorts each half along its
  rows; the kernel reads the data array and the sorted second half and writes the two data outputs; nothing else is
  written.  So every execution ends with the two index results at the sorted halves, the first data output at the
  row-wise read of the data array at the sorted second half, the second data output at zero, and the arguments unchanged.
-/
import proofs.«135948_j12266426597521_1_alg».proof.Proof.KernelArray

noncomputable section

namespace Cert.KernelRun

open Cert.KernelIdeal Cert.KernelIdeal.Gen Cert.KernelIdeal.Value Idealize.ShloMosaic Idealize.ShloMosaic.TcCoe Idealize.SL.Sem
open Idealize.ShloMosaic.StableHlo Cert.KernelArray

variable {F : FTy → Type} [FloatOps F]

/-- The first 128 columns of the index array, each row sorted increasingly (signed order). -/
def sortedLo (a1 : IVec S131072x256 32) : IVec S131072x128 32 :=
  Host.sort S131072x128 1 comparator_i32_d1 (extractStridedSlice S131072x128 ![0, 0] a1 slices_S131072x256_S131072x128_0_0)

/-- The last 128 columns of the index array, each row sorted increasingly (signed order). -/
def sortedHi (a1 : IVec S131072x256 32) : IVec S131072x128 32 :=
  Host.sort S131072x128 1 comparator_i32_d1 (extractStridedSlice S131072x128 ![0, 128] a1 slices_S131072x256_S131072x128_0_128)

variable (m : (ℓ : Loc nD τ sig) → Buf (Elt F) ℓ) (ρ : Dev nD → PrngReg)

/-- What the kernel finds in the second sorted half's buffer. -/
theorem V_v3 (c : Dev nD) :
    (V m c main_v3 : S131072x128.Idx → BitVec 32) = sortedHi (m ((c : Thread nD τ).loc main_arg1)) := by
  dsimp only [V]
  simp only [hostOps0, hostOps0_1, hostOps0_2, hostOps0_3, List.flatten_cons, List.flatten_nil, List.append_nil,
    List.cons_append, List.nil_append]
  after_results
  rfl

/-- What the kernel finds (and leaves) in the first sorted half's buffer. -/
theorem V_v1 (c : Dev nD) :
    (V m c main_v1 : S131072x128.Idx → BitVec 32) = sortedLo (m ((c : Thread nD τ).loc main_arg1)) := by
  dsimp only [V]
  simp only [hostOps0, hostOps0_1, hostOps0_2, hostOps0_3, List.flatten_cons, List.flatten_nil, List.append_nil,
    List.cons_append, List.nil_append]
  after_results
  rfl

/-- The kernel program's run: each result array after the run as a function of the argument arrays, the arguments
    unchanged. -/
theorem run : θ_run defs (onTc (τ := τ) (main (F := F))) ⟨m, fun _ => 0, ρ⟩ fun r => ∀ c : Dev nD,
      r.2.mem ((c : Thread nD τ).loc main_v4_1) = zeros (F := F)
      ∧ r.2.mem ((c : Thread nD τ).loc main_v1) = sortedLo (m ((c : Thread nD τ).loc main_arg1))
      ∧ r.2.mem ((c : Thread nD τ).loc main_v4_0)
          = taken (m ((c : Thread nD τ).loc main_arg0)) (sortedHi (m ((c : Thread nD τ).loc main_arg1)))
      ∧ r.2.mem ((c : Thread nD τ).loc main_v3) = sortedHi (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post3 m r h c).trans (final3 m c),
      ((h c).2 main_v1 (Pipeline.mem_restRefs_of main_v1 (by decide) (by decide))).trans (V_v1 m c),
      (post2 m r h c).trans ((final2 m c).trans (by rw [V_main_arg0, V_v3])),
      ((h c).1 1).trans (((dats m 0 c).arrAt_in 1 rfl _).trans ((A_eq m c 1).trans (V_v3 m c))),
      kept_main_arg0 m r h c,
      kept_main_arg1 m r h c⟩)
    (run_main m ρ)

end Cert.KernelRun

end
-- ==== Proof.RefRun.lean ====
/-
  The reference program, run.

  The reference is a straight line of host operations: the index array is cut into its two column halves, each half
  is sorted along its rows, the second sorted half is handed to a row-wise take of the data array, and a block of
  zeros is made.  The row-wise take itself is a short chain: an index below zero is moved up by the row length 256,
  the result is tested to lie in [0, 255], the data array is read at it (the read clamping the index into the row),
  and where the test failed the read is replaced by the not-a-number word.  Each of these stages is named here as a
  function of the two argument arrays, and the run of the program is stated over those names: every execution ends
  with the four result arrays at the stages' values and the two arguments unchanged.
-/
import proofs.«135948_j12266426597521_1_alg».proof.Proof.Gen.ReferenceIdeal
import proofs.«135948_j12266426597521_1_alg».proof.Proof.LibTypedRef
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The first 128 columns of the index array, each row sorted increasingly (signed order). -/
def sortedLo (a1 : IVec S131072x256 32) : IVec S131072x128 32 :=
  Host.sort S131072x128 1 comparator_i32_d1 (extractStridedSlice S131072x128 ![0, 0] a1 slices_S131072x256_S131072x128_0_0)

/-- The last 128 columns of the index array, each row sorted increasingly (signed order). -/
def sortedHi (a1 : IVec S131072x256 32) : IVec S131072x128 32 :=
  Host.sort S131072x128 1 comparator_i32_d1 (extractStridedSlice S131072x128 ![0, 128] a1 slices_S131072x256_S131072x128_0_128)

/-- An index below zero counts from the row's end: it is moved up by 256. -/
def wrapped (s : IVec S131072x128 32) : IVec S131072x128 32 :=
  select (cmpi .slt s (broadcastInDim S131072x128 ![] bcast_S_S131072x128 (constantI S_ 32 0#32)))
    (addi s (broadcastInDim S131072x128 ![] bcast_S_S131072x128 (constantI S_ 32 256#32))) s

/-- The moved indices with a trailing unit axis: the start indices of the read. -/
def starts (s : IVec S131072x128 32) : IVec S131072x128x1 32 :=
  shapeCast _ (wrapped s) shapeCasts_S131072x128_S131072x128x1

/-- Whether a start index lies in [0, 255], folded over the unit axis. -/
def inRow (s : IVec S131072x128 32) : IVec S131072x128 1 :=
  Host.reduce IntOp.andi
    (andi (cmpi .sge (starts s) (broadcastInDim S131072x128x1 ![] bcast_S_S131072x128x1 (constantI S_ 32 0#32)))
      (cmpi .sle (starts s) (broadcastInDim S131072x128x1 ![0, 1, 2] bcast_S1x1x1_S131072x128x1_0_1_2
        (broadcastInDim S1x1x1 ![2] bcast_S1_S1x1x1_2 (constantI S1 32 255#32)))))
    (constantI S_ 1 1#1) reducesTo_S131072x128x1_S131072x128_d2 h_S_

/-- The row-wise take: the data array read at the start indices, the not-a-number word where an index is out of the row. -/
def taken (a0 : FVec F S131072x256 .f32) (s : IVec S131072x128 32) : FVec F S131072x128 .f32 :=
  select (inRow s) (Host.gather gather_S131072x256_S131072x128x1_S131072x128_n_1_0_0_1_2_11 a0 (starts s))
    (broadcastInDim S131072x128 ![] bcast_S_S131072x128 (constant S_ .f32 0x7FC00000#32))

/-- The block of zeros. -/
def zeros : FVec F S131072x128 .f32 :=
  broadcastInDim S131072x128 ![] bcast_S_S131072x128 (constant S_ .f32 0x00000000#32)

/-! ## The program as a list of operations, and its run -/

/-- The program's 28 host operations in order, a called function's operations in its call's place. -/
abbrev ops : List (HloOp τ sig (Elt F)) :=
  [ unary main_arg1 main_v0 ((extractStridedSlice S131072x128 ![0, 0] · slices_S131072x256_S131072x128_0_0) : (⟨S131072x256, .i32⟩ : BufTy).Contents (Elt F) → (⟨S131072x128, .i32⟩ : BufTy).Contents (Elt F)),
    TRef.unary (TRef.of (T := ⟨S131072x128, .i32⟩) main_v0) (TRef.of (T := ⟨S131072x128, .i32⟩) main_v1) (fun x => Host.sort S131072x128 1 comparator_i32_d1 x),
    unary main_arg1 main_v2 ((extractStridedSlice S131072x128 ![0, 128] · slices_S131072x256_S131072x128_0_128) : (⟨S131072x256, .i32⟩ : BufTy).Contents (Elt F) → (⟨S131072x128, .i32⟩ : BufTy).Contents (Elt F)),
    TRef.unary (TRef.of (T := ⟨S131072x128, .i32⟩) main_v2) (TRef.of (T := ⟨S131072x128, .i32⟩) main_v3) (fun x => Host.sort S131072x128 1 comparator_i32_d1 x),
    TRef.nullary (TRef.of (T := ⟨S_, .i32⟩) main_call2_c) (constantI S_ 32 0#32),
    TRef.unary (TRef.of (T := ⟨S_, .i32⟩) main_call2_c) (TRef.of (T := ⟨S131072x128, .i32⟩) main_call2_v0) (broadcastInDim S131072x128 ![] bcast_S_S131072x128),
    TRef.binary (TRef.of (T := ⟨S131072x128, .i32⟩) main_v3) (TRef.of (T := ⟨S131072x128, .i32⟩) main_call2_v0) (TRef.of (T := ⟨S131072x128, .i1⟩) main_call2_v1) (cmpi .slt),
    TRef.nullary (TRef.of (T := ⟨S_, .i32⟩) main_call2_c_0) (constantI S_ 32 256#32),
    TRef.unary (TRef.of (T := ⟨S_, .i32⟩) main_call2_c_0) (TRef.of (T := ⟨S131072x128, .i32⟩) main_call2_v2) (broadcastInDim S131072x128 ![] bcast_S_S131072x128),
    TRef.binary (TRef.of (T := ⟨S131072x128, .i32⟩) main_v3) (TRef.of (T := ⟨S131072x128, .i32⟩) main_call2_v2) (TRef.of (T := ⟨S131072x128, .i32⟩) main_call2_v3) addi,
    TRef.ternary (TRef.of (T := ⟨S131072x128, .i1⟩) main_call2_v1) (TRef.of (T := ⟨S131072x128, .i32⟩) main_call2_v3) (TRef.of (T := ⟨S131072x128, .i32⟩) main_v3) (TRef.of (T := ⟨S131072x128, .i32⟩) main_call2_v4) select,
    TRef.reshape (TRef.of (T := ⟨S131072x128, .i32⟩) main_call2_v4) (TRef.of (T := ⟨S131072x128x1, .i32⟩) main_call2_v5) rfl shapeCasts_S131072x128_S131072x128x1,
    TRef.nullary (TRef.of (T := ⟨S1, .i32⟩) main_call2_c_1) (constantI S1 32 255#32),
    TRef.nullary (TRef.of (T := ⟨S_, .i32⟩) main_call2_c_2) (constantI S_ 32 0#32),
    TRef.unary (TRef.of (T := ⟨S_, .i32⟩) main_call2_c_2) (TRef.of (T := ⟨S131072x128x1, .i32⟩) main_call2_v6) (broadcastInDim S131072x128x1 ![] bcast_S_S131072x128x1),
    TRef.binary (TRef.of (T := ⟨S131072x128x1, .i32⟩) main_call2_v5) (TRef.of (T := ⟨S131072x128x1, .i32⟩) main_call2_v6) (TRef.of (T := ⟨S131072x128x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S131072x128x1, .i32⟩) main_call2_v9) (broadcastInDim S131072x128x1 ![0, 1, 2] bcast_S1x1x1_S131072x128x1_0_1_2),
    TRef.binary (TRef.of (T := ⟨S131072x128x1, .i32⟩) main_call2_v5) (TRef.of (T := ⟨S131072x128x1, .i32⟩) main_call2_v9) (TRef.of (T := ⟨S131072x128x1, .i1⟩) main_call2_v10) (cmpi .sle),
    TRef.binary (TRef.of (T := ⟨S131072x128x1, .i1⟩) main_call2_v7) (TRef.of (T := ⟨S131072x128x1, .i1⟩) main_call2_v10) (TRef.of (T := ⟨S131072x128x1, .i1⟩) main_call2_v11) andi,
    TRef.nullary (TRef.of (T := ⟨S_, .i1⟩) main_call2_c_3) (constantI S_ 1 1#1),
    TRef.binary (TRef.of (T := ⟨S131072x128x1, .i1⟩) main_call2_v11) (TRef.of (T := ⟨S_, .i1⟩) main_call2_c_3) (TRef.of (T := ⟨S131072x128, .i1⟩) main_call2_v12) (fun x v => Host.reduce IntOp.andi x v reducesTo_S131072x128x1_S131072x128_d2 h_S_),
    TRef.binary (TRef.of (T := ⟨S131072x256, .f32⟩) main_arg0) (TRef.of (T := ⟨S131072x128x1, .i32⟩) main_call2_v5) (TRef.of (T := ⟨S131072x128, .f32⟩) main_call2_v13) (fun x i => Host.gather gather_S131072x256_S131072x128x1_S131072x128_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S131072x128, .f32⟩) main_call2_v14) (broadcastInDim S131072x128 ![] bcast_S_S131072x128),
    TRef.ternary (TRef.of (T := ⟨S131072x128, .i1⟩) main_call2_v12) (TRef.of (T := ⟨S131072x128, .f32⟩) main_call2_v13) (TRef.of (T := ⟨S131072x128, .f32⟩) main_call2_v14) (TRef.of (T := ⟨S131072x128, .f32⟩) main_v4) select,
    nullary main_cst (constant S_ .f32 0x00000000#32),
    unary main_cst main_v5 (broadcastInDim S131072x128 ![] bcast_S_S131072x128 : (⟨S_, .f32⟩ : BufTy).Contents (Elt F) → (⟨S131072x128, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub ..⟩

/-! A called function's operations move contents between a value's type and its buffer's type; at this program's
literal buffers the two are one type and the move is the identity. -/

private theorem at_v2 (v : (⟨S131072x128, .i32⟩ : BufTy).Contents (Elt F)) :
    (TRef.of (T := ⟨S131072x128, .i32⟩) main_v2).ofBuf v = v := rfl
private theorem at_v0 (v : (⟨S131072x128, .i32⟩ : BufTy).Contents (Elt F)) :
    (TRef.of (T := ⟨S131072x128, .i32⟩) main_v0).ofBuf v = v := rfl
private theorem at_v1 (v : (⟨S131072x128, .i32⟩ : BufTy).Contents (Elt F)) :
    (TRef.of (T := ⟨S131072x128, .i32⟩) main_v1).toBuf v = v := rfl
private theorem at_v3 (v : (⟨S131072x128, .i32⟩ : BufTy).Contents (Elt F)) :
    (TRef.of (T := ⟨S131072x128, .i32⟩) main_v3).toBuf v = v := rfl
private theorem at_v4 (v : (⟨S131072x128, .f32⟩ : BufTy).Contents (Elt F)) :
    (TRef.of (T := ⟨S131072x128, .f32⟩) main_v4).toBuf v = v := rfl
private theorem at_arg0 (v : (⟨S131072x256, .f32⟩ : BufTy).Contents (Elt F)) :
    (TRef.of (T := ⟨S131072x256, .f32⟩) main_arg0).ofBuf v = v := rfl
private theorem at_c4 (v : (⟨S131072x128, .i32⟩ : BufTy).Contents (Elt F)) :
    (TRef.of (T := ⟨S131072x128, .i32⟩) main_call2_v4).toBuf v = v := rfl
private theorem at_c5 (v : (⟨S131072x128x1, .i32⟩ : BufTy).Contents (Elt F)) :
    (TRef.of (T := ⟨S131072x128x1, .i32⟩) main_call2_v5).ofBuf v = v := rfl

set_option maxHeartbeats 2000000 in
/-- What the data result holds after the line: the row-wise take of the data array at the sorted second half. -/
theorem after_v4 (V : Valuation τ sig (Elt F)) :
    after (ops (F := F)) V (Proc.devRef .tc main_v4) = taken (V (Proc.devRef .tc main_arg0)) (sortedHi (V (Proc.devRef .tc main_arg1))) := by
  after_results
  simp only [Cert.LibTypedRef.ofBuf_toBuf, Cert.LibTypedRef.toBuf_ofBuf]
  simp only [at_v2, at_v4, at_arg0, at_c4, at_c5]
  rfl

/-- The second index result: the sorted second half. -/
theorem after_v3 (V : Valuation τ sig (Elt F)) :
    after (ops (F := F)) V (Proc.devRef .tc main_v3) = sortedHi (V (Proc.devRef .tc main_arg1)) := by
  after_results
  simp only [at_v2, at_v3]
  rfl

/-- The first index result: the sorted first half. -/
theorem after_v1 (V : Valuation τ sig (Elt F)) :
    after (ops (F := F)) V (Proc.devRef .tc main_v1) = sortedLo (V (Proc.devRef .tc main_arg1)) := by
  after_results
  simp only [at_v0, at_v1]
  rfl

/-- The other data result: zeros. -/
theorem after_v5 (V : Valuation τ sig (Elt F)) :
    after (ops (F := F)) V (Proc.devRef .tc main_v5) = zeros := by
  after_results
  rfl

/-- No operation writes the data argument … -/
theorem after_arg0 (V : Valuation τ sig (Elt F)) :
    after (ops (F := F)) V (Proc.devRef .tc main_arg0) = V (Proc.devRef .tc main_arg0) := by
  after_results

/-- … nor the index argument. -/
theorem after_arg1 (V : Valuation τ sig (Elt F)) :
    after (ops (F := F)) V (Proc.devRef .tc main_arg1) = V (Proc.devRef .tc main_arg1) := by
  after_results

/-- On every device, from any memory with zero counters: every weakly fair execution of the reference terminates with
    its four results at the stages' values of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = zeros
      ∧ r.2.mem ((c.tc : Thread nD τ).loc main_v1) = sortedLo (m ((c.tc : Thread nD τ).loc main_arg1))
      ∧ r.2.mem ((c.tc : Thread nD τ).loc main_v4)
          = taken (m ((c.tc : Thread nD τ).loc main_arg0)) (sortedHi (m ((c.tc : Thread nD τ).loc main_arg1)))
      ∧ r.2.mem ((c.tc : Thread nD τ).loc main_v3) = sortedHi (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5).trans (after_v5 _),
      (h c main_v1).trans (after_v1 _),
      (h c main_v4).trans (after_v4 _),
      (h c main_v3).trans (after_v3 _),
      (h c main_arg0).trans (after_arg0 _),
      (h c main_arg1).trans (after_arg1 _)⟩)
    (run_seq scopedRefs_eq scopedSems_eq defs main (fun _ => ops) main_eq (fun _ => ops_sub) m ρ)

end Cert.RefRun

end
-- ==== Proof.LibTakeRows.lean ====
/-
  A row-wise take read at an index.

  `jnp.take_along_axis(x, idx, axis=1)` of a matrix `x : [R, N]` at an integer matrix `idx : [R, C]` lowers to a
  `stablehlo.gather` whose rows are a batching axis shared by the operand and the start indices, whose start index
  names the column axis, and whose slices are single elements: result element `(r, c)` is the operand's row `r` read at
  the column `idx[r, c, 0]`, the start index read as a signed integer and clamped into `[0, N − 1]` as every gather
  clamps its start indices.

  Also here: a reduction by `and` of an array of one-bit words that are all 1, from the initial word 1, is 1 at every
  result index (what an "all in range" test over a unit axis comes to when every index is in range).
-/
import Idealize.ShloMosaic.Lib.ValueIdx
import Idealize.ShloMosaic.Lib.ReduceAll

namespace Cert.LibTakeRows

open Idealize.ShloMosaic Idealize.ShloMosaic.ValueIdx

section Take
variable {α : Type}

/-- The dimension numbers of a row-wise take: operand `[R, N]`, start indices `[R, C, 1]`, result `[R, C]`; axis 0 a
    batching axis of both, axis 1 of the operand collapsed and named by the start index; their conditions `wf` are
    decided on a program's literal shapes. -/
abbrev takeRowsDims (R N C : Nat)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- THE ROW-WISE TAKE READ AT `(r, c)`: the operand's row `r` at the start index `idx[r, c, 0]`, read signed and clamped
    into `[0, N − 1]`. -/
theorem gather_takeRows_apply {R N C w : Nat} (hN : 0 < N)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (y : (⟨2, ![R, C]⟩ : Shape).Idx) :
    Host.gather (takeRowsDims R N C wf) x idx y
      = x (ix2 (y 0) ⟨min (idx (takeIdx y)).toInt.toNat (N - 1), by omega⟩) := by
  unfold Host.gather
  congr 1
  funext a
  refine Fin.ext ?_
  show (takeRowsDims R N C wf).start y idx a + (takeRowsDims R N C wf).batchCoord y a + (takeRowsDims R N C wf).offCoord y a = _
  match a with
  | ⟨0, _⟩ =>
    rw [GatherDims.start_batching _ y idx _ (List.mem_singleton.mpr rfl),
      GatherDims.offCoord_eq_zero _ y _ (fun h => ((GatherDims.mem_sKept _ _).mp h).2 (List.mem_singleton.mpr rfl))]
    simp only [Nat.zero_add, Nat.add_zero]
    unfold GatherDims.batchCoord
    rw [dif_pos (show (⟨0, by omega⟩ : Fin 2) ∈ (takeRowsDims R N C wf).operandBatchingDims from List.mem_singleton.mpr rfl)]
    rfl
  | ⟨1, _⟩ =>
    rw [GatherDims.batchCoord_eq_zero _ y _ (fun h => absurd (congrArg Fin.val (List.mem_singleton.mp h)) Nat.one_ne_zero),
      GatherDims.offCoord_eq_zero _ y _ (fun h => ((GatherDims.mem_sKept _ _).mp h).1 (List.mem_singleton.mpr rfl))]
    simp only [Nat.add_zero]
    unfold GatherDims.start
    rw [dif_pos (show (⟨1, by omega⟩ : Fin 2) ∈ (takeRowsDims R N C wf).startIndexMap from List.mem_singleton.mpr rfl)]
    have hsi : (takeRowsDims R N C wf).siIdx y ⟨List.idxOf (⟨1, by omega⟩ : Fin 2) (takeRowsDims R N C wf).startIndexMap,
        List.idxOf_lt_length_iff.2 (List.mem_singleton.mpr rfl)⟩ = takeIdx y := by
      funext b; refine Fin.ext ?_
      match b with
      | ⟨0, _⟩ => rfl
      | ⟨1, _⟩ => rfl
      | ⟨2, _⟩ => rfl
    rw [hsi]
    rfl

end Take

section AllOnes
variable {s t u : Shape} {axes : List (Fin s.rank)}

/-- A left fold by `and` over words that are all 1, started at 1, ends at 1. -/
theorem foldl_andi_ones {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_ones f hf l _ (by rw [h, hf a]; rfl)

/-- A `stablehlo.reduce` by `and` of an array of 1s from the initial word 1 is 1 everywhere. -/
theorem reduce_andi_ones (x : s.Idx → BitVec 1) (init : u.Idx → BitVec 1) (h : s.ReducesTo axes t) (hu : 0 < u.numel)
    (hx : ∀ i, x i = 1#1) (hinit : init (Shape.Idx.first hu) = 1#1) (j : t.Idx) :
    Host.reduce IntOp.andi x init h hu j = 1#1 := by
  rw [Host.reduce_eq_foldl]
  exact foldl_andi_ones x hx _ _ hinit

end AllOnes

end Cert.LibTakeRows
-- ==== Proof.RefValue.lean ====
/-
  The reference's row-wise take, read at an index.

  When every sorted index word is below 256, nothing in the row-wise take's guard chain binds: no index is moved up,
  every index passes the range test, and the clamp of the read leaves it alone.  Entry `(r, c)` of the result is then
  the data array's row `r` at the column the index word at `(r, c)` names.  Sorting only rearranges each row's words,
  so the bound on the index array's words passes to the sorted half.
-/
import proofs.«135948_j12266426597521_1_alg».proof.Proof.RefRun
import proofs.«135948_j12266426597521_1_alg».proof.Proof.LibTakeRows
import proofs.«135948_j12266426597521_1_alg».proof.Proof.Words
import Idealize.ShloMosaic.Lib.Pipeline.Value

noncomputable section

namespace Cert.RefValue

open Cert.ReferenceIdeal Cert.ReferenceIdeal.Gen Idealize.ShloMosaic Idealize.ShloMosaic.ValueIdx Cert.RefRun Cert.LibTakeRows

variable {F : FTy → Type} [FloatOps F]

/-- A sort along an axis only rearranges: a property of every entry of the operand holds of every entry of the result. -/
theorem sort_all {s : Shape} {α : Type} (d : Nat) (cmp : α → α → BitVec 1) (x : s.Idx → α) (P : α → Prop)
    (h : ∀ i, P (x i)) (j : s.Idx) : P (Host.sort s d cmp x j) := by
  unfold Host.sort
  split
  · exact h _
  · exact h _

/-- A column slice reads entries of the operand: a property of every entry of the operand holds of every entry of the slice. -/
theorem slice_all {s t : Shape} {α : Type} (off : Fin s.rank → Nat) (x : s.Idx → α) (hs : s.Slices off t) (P : α → Prop)
    (h : ∀ i, P (x i)) (j : t.Idx) : P (extractStridedSlice t off x hs j) := by
  unfold extractStridedSlice
  exact h _

/-- Every word of the sorted second half is below 256 when every word of the index array is. -/
theorem sortedHi_small (a1 : IVec S131072x256 32) (h : ∀ i, (a1 i).toNat < 256) (j : S131072x128.Idx) :
    (sortedHi a1 j).toNat < 256 :=
  sort_all 1 _ _ (fun w : BitVec 32 => w.toNat < 256) (slice_all _ a1 _ (fun w : BitVec 32 => w.toNat < 256) h) j

variable (s : IVec S131072x128 32) (hs : ∀ i, (s i).toNat < 256)
include hs

/-- No index is moved up. -/
theorem wrapped_small (i : S131072x128.Idx) : wrapped s i = s i :=
  Cert.Words.wrap_small (hs i)

/-- Every start index is below 256. -/
theorem starts_small (j : S131072x128x1.Idx) : (starts s j).toNat < 256 := by
  show (wrapped s _).toNat < 256
  rw [wrapped_small s hs]
  exact hs _

/-- The start index of entry `(r, c)` is the index word there. -/
theorem starts_take (i : S131072x128.Idx) : starts s (takeIdx i) = s i := by
  refine (shapeCast_apply (wrapped s) shapeCasts_S131072x128_S131072x128x1 (takeIdx i) i ?_).trans (wrapped_small s hs i)
  rw [Shape.rowMajor_val_two, Shape.rowMajor_val_three]
  show (i 0).val * 128 + (i 1).val = ((i 0).val * 128 + (i 1).val) * 1 + 0
  omega

/-- Every index passes the range test. -/
theorem inRow_one (i : S131072x128.Idx) : inRow s i = 1#1 := by
  have hinit : constantI S_ 1 1#1 (Shape.Idx.first h_S_) = 1#1 := rfl
  have hx : ∀ j : S131072x128x1.Idx,
      andi (cmpi .sge (starts s) (broadcastInDim S131072x128x1 ![] bcast_S_S131072x128x1 (constantI S_ 32 0#32)))
        (cmpi .sle (starts s) (broadcastInDim S131072x128x1 ![0, 1, 2] bcast_S1x1x1_S131072x128x1_0_1_2
          (broadcastInDim S1x1x1 ![2] bcast_S1_S1x1x1_2 (constantI S1 32 255#32)))) j = 1#1 := by
    intro j
    show IntOp.andi (IntOp.cmpi .sge (starts s j) 0#32) (IntOp.cmpi .sle (starts s j) 255#32) = 1#1
    rw [Cert.Words.ge_zero (starts_small s hs j), Cert.Words.le_255 (starts_small s hs j)]
    rfl
  unfold inRow
  rw [Host.reduce_eq_foldl]
  exact foldl_andi_ones _ hx _ _ hinit

/-- THE ROW-WISE TAKE AT `(r, c)`: the data array's row `r` at the column the index word names. -/
theorem taken_apply (a0 : FVec F S131072x256 .f32) (i : S131072x128.Idx) :
    taken a0 s i = a0 (ix2 (i 0) ⟨(s i).toNat, hs i⟩) := by
  have hd : gather_S131072x256_S131072x128x1_S131072x128_n_1_0_0_1_2_11
      = takeRowsDims 131072 256 128 gather_S131072x256_S131072x128x1_S131072x128_n_1_0_0_1_2_11_wf := rfl
  unfold taken
  show Scalar.select (inRow s i) (Host.gather gather_S131072x256_S131072x128x1_S131072x128_n_1_0_0_1_2_11 a0 (starts s) i) _ = _
  rw [inRow_one s hs i, select_one, hd, gather_takeRows_apply (by decide)]
  congr 2
  refine Fin.ext ?_
  show min (starts s (takeIdx i)).toInt.toNat (256 - 1) = (s i).toNat
  rw [starts_take s hs i]
  exact Cert.Words.clamp_small (hs i)

end Cert.RefValue

end
-- ==== Proof.Bridge.lean ====
/-
  The two programs compute one function.

  Both programs cut and sort the index array in the same way, so their two index results are the same arrays, and both
  make a block of zeros.  For the gathered data the kernel reads, at entry `(r, c)`, row `r` of the data array at the
  column its split into two halves picks from the sorted index word; the reference reads row `r` at the column the word
  itself names, behind its range guard.  When every index word is below 256 the guard never binds and the split picks
  the word's own column (first half: the word; second half: 128 + (word − 128)), so the two reads are one.
-/
import proofs.«135948_j12266426597521_1_alg».proof.Proof.KernelRun
import proofs.«135948_j12266426597521_1_alg».proof.Proof.RefValue

noncomputable section

namespace Cert.Bridge

open Idealize.ShloMosaic Idealize.ShloMosaic.ValueIdx

/-- The zero blocks agree. -/
theorem zeros_eq : Cert.RefRun.zeros (F := Ideal) = Cert.KernelArray.zeros (F := Ideal) := rfl

/-- The sorted first halves agree. -/
theorem sortedLo_eq (a1 : IVec Cert.KernelIdeal.S131072x256 32) :
    Cert.RefRun.sortedLo a1 = Cert.KernelRun.sortedLo a1 := rfl

/-- The sorted second halves agree. -/
theorem sortedHi_eq (a1 : IVec Cert.KernelIdeal.S131072x256 32) :
    Cert.RefRun.sortedHi a1 = Cert.KernelRun.sortedHi a1 := rfl

/-- The gathered data agree when every index word is below 256. -/
theorem taken_eq (a0 : FVec Ideal Cert.KernelIdeal.S131072x256 .f32) (a1 : IVec Cert.KernelIdeal.S131072x256 32)
    (h : ∀ i, (a1 i).toNat < 256) :
    Cert.RefRun.taken a0 (Cert.RefRun.sortedHi a1) = Cert.KernelArray.taken (F := Ideal) a0 (Cert.KernelRun.sortedHi a1) := by
  have hs := Cert.RefValue.sortedHi_small a1 h
  funext i
  rw [Cert.RefValue.taken_apply _ hs a0 i, ← sortedHi_eq]
  show a0 (ix2 (i 0) ⟨(Cert.RefRun.sortedHi a1 i).toNat, hs i⟩) = a0 (ix2 (i 0) (Cert.KernelArray.pick (Cert.RefRun.sortedHi a1 i)))
  rw [Cert.KernelArray.pick_small (hs i)]

end Cert.Bridge

end
-- ==== Proof.LibIndexPre.lean ====
/-
  Reading a printed precondition's integer tests entry by entry.

  A precondition that says `jnp.all(idx >= lo)` or `jnp.all(idx < hi)` of an integer array prints as a reduction by
  `and`, over all axes, of the comparison of the array with the bound spread over the array's shape; it holds when the
  reduction's one result is 1.  A reduction by `and` that is 1 had a 1 at every entry, so the comparison holds of every
  entry and the bound.  Stated for any comparison, any shape and any reduced axes, so that a precondition's conjunction
  is read one test at a time.
-/
import Idealize.ShloMosaic.Lib.ReduceAll
import Idealize.ShloMosaic.Lib.Pipeline.Value
import Idealize.ShloMosaic.Lib.ValueIdx

namespace Cert.LibIndexPre

open Idealize.ShloMosaic Idealize.ShloMosaic.ValueIdx

/-- The rank-0 shape has one index. -/
instance : Subsingleton (⟨0, ![]⟩ : Shape).Idx := ⟨fun a b => funext fun d => d.elim0⟩

/-- A test "every entry compares so with the bound" that holds says each entry does. -/
theorem all_cmpi {s : Shape} {axes : List (Fin s.rank)} (p : CmpIPredicate) (a : IVec s 32) (bound : BitVec 32)
    (hb : (⟨0, ![]⟩ : Shape).BroadcastsInDim s ![]) (hr : s.ReducesTo axes ⟨0, ![]⟩) (hu : 0 < (⟨0, ![]⟩ : Shape).numel)
    (e : Host.reduce IntOp.andi (cmpi p a (broadcastInDim s ![] hb (constantI ⟨0, ![]⟩ 32 bound)))
      (constantI ⟨0, ![]⟩ 1 1#1) hr hu ix0 = 1#1) (i : s.Idx) : IntOp.cmpi p (a i) bound = 1#1 :=
  Host.reduce_andi_all _ _ hr hu ix0 e i

end Cert.LibIndexPre
-- ==== Proof.PreIdx.lean ====
/-
  What the precondition says of the index array.

  The precondition is a conjunction of three tests: every data entry is finite, every index entry is at least 0, every
  index entry is below 256.  The last two say that each index word, read unsigned, is below 256: a column of a row of
  256 entries.
-/
import proofs.«135948_j12266426597521_1_alg».proof.Pre_finite_inputs
import proofs.«135948_j12266426597521_1_alg».proof.Proof.LibIndexPre
import proofs.«135948_j12266426597521_1_alg».proof.Proof.Words

noncomputable section

namespace Cert.PreIdx

open Idealize.ShloMosaic Idealize.ShloMosaic.ValueIdx Cert.Pre_finite_inputs

variable [Cert.Pre_finite_inputs.Facts]

/-- Under the precondition every index word is below 256. -/
theorem index_small (a0 : FVec Ideal S131072x256 .f32) (a1 : IVec S131072x256 32)
    (h : Cert.Pre_finite_inputs.fn (F := Ideal) a0 a1 = fun _ => 1#1) (i : S131072x256.Idx) : (a1 i).toNat < 256 := by
  have h0 := congrFun h ix0
  dsimp only [Cert.Pre_finite_inputs.fn] at h0
  obtain ⟨h01, h2⟩ := IntOp.andi_eq_one.1 h0
  obtain ⟨_, h1⟩ := IntOp.andi_eq_one.1 h01
  exact Cert.Words.small_of_tests (Cert.LibIndexPre.all_cmpi .sge a1 0#32 _ _ _ h1 i)
    (Cert.LibIndexPre.all_cmpi .slt a1 256#32 _ _ _ h2 i)

end Cert.PreIdx

end
-- ==== Proof.lean ====
/- The proof of the certificate's claim.

   The kernel gathers, row by row, the columns of a 131072 × 256 data array that a sorted list of 128 column indices
   names, and returns beside it a block of zeros and the two sorted halves of the index array; the reference computes
   the same four arrays with a row-wise take.  The indices are columns of a row of 256, and the statement's
   precondition says so: every index entry lies in [0, 256).  Under it the two programs agree entry by entry:
   the reference's range guard never binds and the kernel's split of the row into two halves of 128 columns reads the
   named column (`Bridge`).  Outside that range they differ (an index of −1 counts from the row's end in the reference
   and from the end of the first half in the kernel), which is why the precondition is needed.

   The three frames are the generated frame runs (the reference's: its run with the results dropped); the kernel's
   idealization rewrote nothing, so `preserves` is trivial; `algebraic` sets the kernel's run (`KernelRun`) beside the
   reference's (`RefRun`) and closes each of the four results with `Bridge`. -/
import proofs.«135948_j12266426597521_1_alg».proof.Defs
import proofs.«135948_j12266426597521_1_alg».proof.Proof.Gen.Kernel
import proofs.«135948_j12266426597521_1_alg».proof.Proof.Gen.Kernel.Skeleton
import proofs.«135948_j12266426597521_1_alg».proof.Proof.Gen.Kernel.Launch
import proofs.«135948_j12266426597521_1_alg».proof.Proof.Gen.Kernel.Points
import proofs.«135948_j12266426597521_1_alg».proof.Proof.Gen.Kernel.Frame
import proofs.«135948_j12266426597521_1_alg».proof.Proof.Gen.KernelIdeal
import proofs.«135948_j12266426597521_1_alg».proof.Proof.Gen.KernelIdeal.Skeleton
import proofs.«135948_j12266426597521_1_alg».proof.Proof.Gen.KernelIdeal.Launch
import proofs.«135948_j12266426597521_1_alg».proof.Proof.Gen.KernelIdeal.Points
import proofs.«135948_j12266426597521_1_alg».proof.Proof.Gen.KernelIdeal.Frame
import proofs.«135948_j12266426597521_1_alg».proof.Proof.Gen.ReferenceIdeal
import proofs.«135948_j12266426597521_1_alg».proof.Proof.Gen.Pre_finite_inputs
import proofs.«135948_j12266426597521_1_alg».proof.Proof.Gen.KernelIdeal.Value
import proofs.«135948_j12266426597521_1_alg».proof.Proof.Bridge
import proofs.«135948_j12266426597521_1_alg».proof.Proof.PreIdx
import Idealize.ShloMosaic.Adequacy
import Idealize.ShloMosaic.Init

noncomputable section

namespace Cert.Proof

open Idealize.ShloMosaic Idealize.SL.Sem Cert.Kernel

/-- The kernel as printed runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments alone: its run, the results dropped. -/
theorem frame_ri : Cert.frame_ReferenceIdeal := fun m ρ _ =>
  (θ_run Cert.ReferenceIdeal.defs _ _).mono (fun _ h c => ⟨(h c).2.2.2.2.1, (h c).2.2.2.2.2⟩)
    (Cert.RefRun.run (F := Ideal) m ρ)

/-- The idealization rewrote nothing. -/
theorem preserves : Cert.preserves_Kernel_KernelIdeal := trivial

/-- From memories agreeing on the arguments, under the precondition, both programs run and end with equal results. -/
theorem algebraic : Cert.algebraic_KernelIdeal_ReferenceIdeal := by
  intro m ρ m' ρ' hpre hagree
  refine ⟨_, _, _, _, Cert.KernelRun.run (F := Ideal) m ρ, ?_⟩
  refine (θ_run Cert.ReferenceIdeal.defs _ _).mono (fun _ h c => ?_) (Cert.RefRun.run (F := Ideal) m' ρ')
  obtain ⟨h5, h1, h4, h3, ha0, ha1⟩ := h c
  have hsmall := Cert.PreIdx.index_small _ _ (hpre c)
  refine ⟨h5.trans ?_, h1.trans ?_, h4.trans ?_, h3.trans ?_, ha0, ha1⟩
  · exact Cert.Bridge.zeros_eq
  · rw [(hagree c).2]; exact Cert.Bridge.sortedLo_eq _
  · rw [(hagree c).1, (hagree c).2]; exact Cert.Bridge.taken_eq _ _ hsmall
  · rw [(hagree c).2]; exact Cert.Bridge.sortedHi_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
